-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x13x13 : Shape := ⟨3, ![131072, 13, 13]⟩
abbrev S131072x1 : Shape := ⟨2, ![131072, 1]⟩
abbrev S169x169 : Shape := ⟨2, ![169, 169]⟩
abbrev S169 : Shape := ⟨1, ![169]⟩
abbrev S_ : Shape := ⟨0, ![]⟩

class Facts : Prop where
  bcast_S_S131072x13x13 : S_.BroadcastsInDim S131072x13x13 (![] : Fin 0 → Fin S131072x13x13.rank)
  reducesTo_S131072x13x13_S_d0_1_2 : S131072x13x13.ReducesTo [0, 1, 2] S_
  h_S_ : 0 < S_.numel
  bcast_S_S131072x1 : S_.BroadcastsInDim S131072x1 (![] : Fin 0 → Fin S131072x1.rank)
  reducesTo_S131072x1_S_d0_1 : S131072x1.ReducesTo [0, 1] S_
  bcast_S_S169x169 : S_.BroadcastsInDim S169x169 (![] : Fin 0 → Fin S169x169.rank)
  reducesTo_S169x169_S_d0_1 : S169x169.ReducesTo [0, 1] S_
  bcast_S_S169 : S_.BroadcastsInDim S169 (![] : Fin 0 → Fin S169.rank)
  reducesTo_S169_S_d0 : S169.ReducesTo [0] S_

variable [Facts]

def fn_part1 {F : FTy → Type} [FloatOps F] (main_arg4 : FVec F S169x169 .f32) (main_arg5 : FVec F S169 .f32) (main_v13 : IVec S_ 1) (main_v16 : IVec S131072x1 1) : IVec S_ 1 :=
  let main_c_5 : IVec S_ 1 := constantI S_ 1 1#1
  let main_v17 : IVec S_ 1 := (fun x v => Host.reduce IntOp.andi x v reducesTo_S131072x1_S_d0_1 h_S_) main_v16 main_c_5
  let main_v18 : IVec S_ 1 := andi main_v13 main_v17
  let main_v19 : FVec F S169x169 .f32 := Host.absf main_arg4
  let main_cst_6 : FVec F S_ .f32 := constant S_ .f32 0x7F800000#32
  let main_v20 : FVec F S169x169 .f32 := broadcastInDim S169x169 ![] bcast_S_S169x169 main_cst_6
  let main_v21 : IVec S169x169 1 := cmpf .olt main_v19 main_v20
  let main_c_7 : IVec S_ 1 := constantI S_ 1 1#1
  let main_v22 : IVec S_ 1 := (fun x v => Host.reduce IntOp.andi x v reducesTo_S169x169_S_d0_1 h_S_) main_v21 main_c_7
  let main_v23 : IVec S_ 1 := andi main_v18 main_v22
  let main_v24 : FVec F S169 .f32 := Host.absf main_arg5
  let main_cst_8 : FVec F S_ .f32 := constant S_ .f32 0x7F800000#32
  let main_v25 : FVec F S169 .f32 := broadcastInDim S169 ![] bcast_S_S169 main_cst_8
  let main_v26 : IVec S169 1 := cmpf .olt main_v24 main_v25
  let main_c_9 : IVec S_ 1 := constantI S_ 1 1#1
  let main_v27 : IVec S_ 1 := (fun x v => Host.reduce IntOp.andi x v reducesTo_S169_S_d0 h_S_) main_v26 main_c_9
  let main_v28 : IVec S_ 1 := andi main_v23 main_v27
  main_v28

def fn {F : FTy → Type} [FloatOps F] (main_arg0 : FVec F S131072x13x13 .f32) (main_arg1 : FVec F S131072x13x13 .f32) (main_arg2 : FVec F S131072x13x13 .f32) (main_arg3 : FVec F S131072x1 .f32) (main_arg4 : FVec F S169x169 .f32) (main_arg5 : FVec F S169 .f32) : IVec S_ 1 :=
  let main_v0 : FVec F S131072x13x13 .f32 := Host.absf main_arg0
  let main_cst : FVec F S_ .f32 := constant S_ .f32 0x7F800000#32
  let main_v1 : FVec F S131072x13x13 .f32 := broadcastInDim S131072x13x13 ![] bcast_S_S131072x13x13 main_cst
  let main_v2 : IVec S131072x13x13 1 := cmpf .olt main_v0 main_v1
  let main_c : IVec S_ 1 := constantI S_ 1 1#1
  let main_v3 : IVec S_ 1 := (fun x v => Host.reduce IntOp.andi x v reducesTo_S131072x13x13_S_d0_1_2 h_S_) main_v2 main_c
  let main_v4 : FVec F S131072x13x13 .f32 := Host.absf main_arg1
  let main_cst_0 : FVec F S_ .f32 := constant S_ .f32 0x7F800000#32
  let main_v5 : FVec F S131072x13x13 .f32 := broadcastInDim S131072x13x13 ![] bcast_S_S131072x13x13 main_cst_0
  let main_v6 : IVec S131072x13x13 1 := cmpf .olt main_v4 main_v5
  let main_c_1 : IVec S_ 1 := constantI S_ 1 1#1
  let main_v7 : IVec S_ 1 := (fun x v => Host.reduce IntOp.andi x v reducesTo_S131072x13x13_S_d0_1_2 h_S_) main_v6 main_c_1
  let main_v8 : IVec S_ 1 := andi main_v3 main_v7
  let main_v9 : FVec F S131072x13x13 .f32 := Host.absf main_arg2
  let main_cst_2 : FVec F S_ .f32 := constant S_ .f32 0x7F800000#32
  let main_v10 : FVec F S131072x13x13 .f32 := broadcastInDim S131072x13x13 ![] bcast_S_S131072x13x13 main_cst_2
  let main_v11 : IVec S131072x13x13 1 := cmpf .olt main_v9 main_v10
  let main_c_3 : IVec S_ 1 := constantI S_ 1 1#1
  let main_v12 : IVec S_ 1 := (fun x v => Host.reduce IntOp.andi x v reducesTo_S131072x13x13_S_d0_1_2 h_S_) main_v11 main_c_3
  let main_v13 : IVec S_ 1 := andi main_v8 main_v12
  let main_v14 : FVec F S131072x1 .f32 := Host.absf main_arg3
  let main_cst_4 : FVec F S_ .f32 := constant S_ .f32 0x7F800000#32
  let main_v15 : FVec F S131072x1 .f32 := broadcastInDim S131072x1 ![] bcast_S_S131072x1 main_cst_4
  let main_v16 : IVec S131072x1 1 := cmpf .olt main_v14 main_v15
  fn_part1 (F := F) main_arg4 main_arg5 main_v13 main_v16
-- ==== Kernel.lean ====
abbrev S131072x13x13 : Shape := ⟨3, ![131072, 13, 13]⟩
abbrev S131072x1 : Shape := ⟨2, ![131072, 1]⟩
abbrev S169x169 : Shape := ⟨2, ![169, 169]⟩
abbrev S169 : Shape := ⟨1, ![169]⟩
abbrev S131072x169 : Shape := ⟨2, ![131072, 169]⟩
abbrev S1x169 : Shape := ⟨2, ![1, 169]⟩
abbrev S_ : Shape := ⟨0, ![]⟩
abbrev S2x1x128 : Shape := ⟨3, ![2, 1, 128]⟩
abbrev S2048x169 : Shape := ⟨2, ![2048, 169]⟩
abbrev S2048x1 : Shape := ⟨2, ![2048, 1]⟩
abbrev S1x1x128 : Shape := ⟨3, ![1, 1, 128]⟩
abbrev S2048 : Shape := ⟨1, ![2048]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 25
  | .vmem => 14
  | .smem => 0
  | _ => 0

abbrev bufTy : (tb : Table) → Fin (tcTables nBuf tb) → BufTy
  | .hbm, ⟨0, _⟩ => ⟨S131072x13x13, .f32⟩
  | .hbm, ⟨1, _⟩ => ⟨S131072x13x13, .f32⟩
  | .hbm, ⟨2, _⟩ => ⟨S131072x13x13, .f32⟩
  | .hbm, ⟨3, _⟩ => ⟨S131072x1, .f32⟩
  | .hbm, ⟨4, _⟩ => ⟨S169x169, .f32⟩
  | .hbm, ⟨5, _⟩ => ⟨S169, .f32⟩
  | .hbm, ⟨6, _⟩ => ⟨S131072x169, .f32⟩
  | .hbm, ⟨7, _⟩ => ⟨S131072x169, .f32⟩
  | .hbm, ⟨8, _⟩ => ⟨S131072x169, .f32⟩
  | .hbm, ⟨9, _⟩ => ⟨S131072x1, .f32⟩
  | .hbm, ⟨10, _⟩ => ⟨S131072x1, .f32⟩
  | .hbm, ⟨11, _⟩ => ⟨S131072x1, .f32⟩
  | .hbm, ⟨12, _⟩ => ⟨S169x169, .f32⟩
  | .hbm, ⟨13, _⟩ => ⟨S169x169, .bf16⟩
  | .hbm, ⟨14, _⟩ => ⟨S1x169, .f32⟩
  | .hbm, ⟨15, _⟩ => ⟨S_, .f32⟩
  | .hbm, ⟨16, _⟩ => ⟨S169, .f32⟩
  | .hbm, ⟨17, _⟩ => ⟨S1x169, .f32⟩
  | .hbm, ⟨18, _⟩ => ⟨S2x1x128, .f32⟩
  | .hbm, ⟨19, _⟩ => ⟨S2x1x1, .f32⟩
  | .hbm, ⟨20, _⟩ => ⟨S2, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S2048x169, .f32⟩
  | .local _ .vmem, ⟨1, _⟩ => ⟨S2048x169, .f32⟩
  | .local _ .vmem, ⟨2, _⟩ => ⟨S2048x169, .f32⟩
  | .local _ .vmem, ⟨3, _⟩ => ⟨S2048x169, .f32⟩
  | .local _ .vmem, ⟨4, _⟩ => ⟨S2048x169, .f32⟩
  | .local _ .vmem, ⟨5, _⟩ => ⟨S2048x169, .f32⟩
  | .local _ .vmem, ⟨6, _⟩ => ⟨S2048x1, .f32⟩
  | .local _ .vmem, ⟨7, _⟩ => ⟨S2048x1, .f32⟩
  | .local _ .vmem, ⟨8, _⟩ => ⟨S169x169, .bf16⟩
  | .local _ .vmem, ⟨9, _⟩ => ⟨S1x169, .f32⟩
  | .local _ .vmem, ⟨10, _⟩ => ⟨S1x169, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | _, _ => ⟨S131072x13x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v48 : BitVec 1 := Scalar.cmpi .eq arg1 c31_i32
  let v49 : BitVec 32 := Scalar.extui v48
  let c0_i32_25 : BitVec 32 := 0#32
  let v50 : BitVec 1 := Scalar.cmpi .ne v49 c0_i32_25
  v50

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x169 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x169 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x169 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S169x169 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x169 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x169 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S131072x13x13_S131072x169 : S131072x13x13.ShapeCasts S131072x169
  transposes_S169x169_S169x169_1_0 : S169x169.Transposes [1, 0] S169x169
  bitsLt_bf16_f32 : FTy.bits .bf16 < FTy.bits .f32
  shapeCasts_S169_S1x169 : S169.ShapeCasts S1x169
  reducesTo_S169x169_S169_d1 : S169x169.ReducesTo [1] S169
  h_S_ : 0 < S_.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S2048x169_S2048x169_0_0 : ∀ a, (![0, 0] : Fin 2 → Nat) a + S2048x169.size a ≤ S2048x169.size a
  h_S2048x169 : 0 < S2048x169.numel
  shapeCasts_S2048x169_S2048x169 : S2048x169.ShapeCasts S2048x169
  inb_S169x169_S169x169_0_0 : ∀ a, (![0, 0] : Fin 2 → Nat) a + S169x169.size a ≤ S169x169.size a
  h_S169x169 : 0 < S169x169.numel
  shapeCasts_S169x169_S169x169 : S169x169.ShapeCasts S169x169
  inb_S1x169_S1x169_0_0 : ∀ a, (![0, 0] : Fin 2 → Nat) a + S1x169.size a ≤ S1x169.size a
  h_S1x169 : 0 < S1x169.numel
  shapeCasts_S1x169_S1x169 : S1x169.ShapeCasts S1x169
  broadcasts_S1x169_S2048x169 : S1x169.Broadcasts S2048x169
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x169 : S2048x1.Broadcasts S2048x169
  reduces_S2048x169_S2048 : S2048x169.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  broadcasts_S1x1x1_S1x1x128 : S1x1x1.Broadcasts S1x1x128
  slices_S2x1x128_S2x1x1_0_0_0 : S2x1x128.Slices ![0, 0, 0] S2x1x1
  shapeCasts_S2x1x1_S2 : S2x1x1.ShapeCasts S2
  reducesTo_S2_S_d0 : S2.ReducesTo [0] S_
  dot_S2048x169_S169x169_S2048x169_1_0_0_1_n_n_wf : DotDims.WF S2048x169 S169x169 S2048x169 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x169.size a ≤ S131072x169.size a
  hwx0_0 : ∀ i : grid0.Coords, EltTy.bits .f32 = 32 ∨ (Rect.block (s := S131072x169) S2048x169.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x169.size a ≤ S131072x169.size a
  hwx0_1 : ∀ i : grid0.Coords, EltTy.bits .f32 = 32 ∨ (Rect.block (s := S131072x169) S2048x169.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x169.size a ≤ S131072x169.size a
  hwx0_2 : ∀ i : grid0.Coords, EltTy.bits .f32 = 32 ∨ (Rect.block (s := S131072x169) S2048x169.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S131072x1.size a
  hwx0_3 : ∀ i : grid0.Coords, EltTy.bits .f32 = 32 ∨ (Rect.block (s := S131072x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S169x169.size a ≤ S169x169.size a
  hwx0_4 : ∀ i : grid0.Coords, EltTy.bits .bf16 = 32 ∨ (Rect.block (s := S169x169) S169x169.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x169.size a ≤ S1x169.size a
  hwx0_5 : ∀ i : grid0.Coords, EltTy.bits .f32 = 32 ∨ (Rect.block (s := S1x169) S1x169.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x169.size a ≤ S1x169.size a
  hwx0_6 : ∀ i : grid0.Coords, EltTy.bits .f32 = 32 ∨ (Rect.block (s := S1x169) S1x169.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S2x1x128.size a
  hwx0_7 : ∀ i : grid0.Coords, EltTy.bits .f32 = 32 ∨ (Rect.block (s := S2x1x128) S1x1x128.size (cc0_transform_7 i) (hinb0_7 i)).WholeWords (EltTy.packing .f32)

variable [Facts₀]

def dot_S2048x169_S169x169_S2048x169_1_0_0_1_n_n : DotDims S2048x169 S169x169 S2048x169 where
  lhsContracting := [1]
  rhsContracting := [0]
  lhsNonContracting := [0]
  rhsNonContracting := [1]
  lhsBatch := []
  rhsBatch := []
  wf := dot_S2048x169_S169x169_S2048x169_1_0_0_1_n_n_wf

abbrev win0_0 : Pipeline.Window sig grid0 :=
  Pipeline.Window.ofSpec (Memref.whole main_v0) S2048x169.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x169.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x169.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S169x169.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x169.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x169.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S131072x13x13 : Shape := ⟨3, ![131072, 13, 13]⟩
abbrev S131072x1 : Shape := ⟨2, ![131072, 1]⟩
abbrev S169x169 : Shape := ⟨2, ![169, 169]⟩
abbrev S169 : Shape := ⟨1, ![169]⟩
abbrev S131072x169 : Shape := ⟨2, ![131072, 169]⟩
abbrev S1x169 : Shape := ⟨2, ![1, 169]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S131072x13x13, .f32⟩
  | .hbm, ⟨1, _⟩ => ⟨S131072x13x13, .f32⟩
  | .hbm, ⟨2, _⟩ => ⟨S131072x13x13, .f32⟩
  | .hbm, ⟨3, _⟩ => ⟨S131072x1, .f32⟩
  | .hbm, ⟨4, _⟩ => ⟨S169x169, .f32⟩
  | .hbm, ⟨5, _⟩ => ⟨S169, .f32⟩
  | .hbm, ⟨6, _⟩ => ⟨S131072x169, .f32⟩
  | .hbm, ⟨7, _⟩ => ⟨S131072x169, .f32⟩
  | .hbm, ⟨8, _⟩ => ⟨S131072x169, .f32⟩
  | .hbm, ⟨9, _⟩ => ⟨S131072x169, .f32⟩
  | .hbm, ⟨10, _⟩ => ⟨S131072x169, .f32⟩
  | .hbm, ⟨11, _⟩ => ⟨S1x169, .f32⟩
  | .hbm, ⟨12, _⟩ => ⟨S_, .f32⟩
  | .hbm, ⟨13, _⟩ => ⟨S1x169, .f32⟩
  | .hbm, ⟨14, _⟩ => ⟨S1x169, .f32⟩
  | .hbm, ⟨15, _⟩ => ⟨S131072x169, .f32⟩
  | .hbm, ⟨16, _⟩ => ⟨S131072x169, .f32⟩
  | .hbm, ⟨17, _⟩ => ⟨S131072x1, .f32⟩
  | .hbm, ⟨18, _⟩ => ⟨S131072x1, .f32⟩
  | .hbm, ⟨19, _⟩ => ⟨S131072x169, .f32⟩
  | .hbm, ⟨20, _⟩ => ⟨S131072x169, .f32⟩
  | .hbm, ⟨21, _⟩ => ⟨S131072x169, .f32⟩
  | .hbm, ⟨22, _⟩ => ⟨S131072x169, .f32⟩
  | .hbm, ⟨23, _⟩ => ⟨S131072x169, .f32⟩
  | .hbm, ⟨24, _⟩ => ⟨S131072x169, .f32⟩
  | .hbm, ⟨25, _⟩ => ⟨S131072x169, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S131072x13x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  shapeCasts_S131072x13x13_S131072x169 : S131072x13x13.ShapeCasts S131072x169
  bcast_S169_S1x169_1 : S169.BroadcastsInDim S1x169 (![1] : Fin 1 → Fin S1x169.rank)
  bcast_S_S1x169 : S_.BroadcastsInDim S1x169 (![] : Fin 0 → Fin S1x169.rank)
  bcast_S131072x1_S131072x169_0_1 : S131072x1.BroadcastsInDim S131072x169 (![0, 1] : Fin 2 → Fin S131072x169.rank)
  bcast_S1x169_S131072x169_0_1 : S1x169.BroadcastsInDim S131072x169 (![0, 1] : Fin 2 → Fin S131072x169.rank)
  reducesTo_S131072x169_S_d0_1 : S131072x169.ReducesTo [0, 1] S_
  h_S_ : 0 < S_.numel
  dot_S131072x169_S169x169_S131072x169_1_1_0_0_n_n_wf : DotDims.WF S131072x169 S169x169 S131072x169 [1] [1] [0] [0] [] []

variable [Facts₀]

def dot_S131072x169_S169x169_S131072x169_1_1_0_0_n_n : DotDims S131072x169 S169x169 S131072x169 where
  lhsContracting := [1]
  rhsContracting := [1]
  lhsNonContracting := [0]
  rhsNonContracting := [0]
  lhsBatch := []
  rhsBatch := []
  wf := dot_S131072x169_S169x169_S131072x169_1_1_0_0_n_n_wf

class Facts : Prop extends Facts₀ where

variable [Facts]
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.Finite.lean ====
/-
  The finiteness precondition, read back. The printed test computes, for each of the six argument arrays, whether every
  entry is below +infinity in absolute value (a comparison at every index, then a reduction by "and" over all axes from
  the constant 1), and joins the six answers by "and". When the joined answer is 1, each of the six reductions is 1, so
  each comparison is 1 at every index, and an extended real whose absolute value is below the top element is a real
  number. The step from one reduction to its array's entries is proved once, for an arbitrary shape.
-/
import proofs.«118152_j8881992368533_2_alg».proof.Pre_finite_inputs
import proofs.«118152_j8881992368533_2_alg».proof.Proof.Gen.Pre_finite_inputs
import proofs.«118152_j8881992368533_2_alg».proof.Proof.LibRealOps
import Idealize.ShloMosaic.Lib.ReduceAll

noncomputable section

namespace Cert.Finite

open Idealize.ShloMosaic Cert.Pre_finite_inputs

/-- The shape of rank zero has a single index. -/
instance subsingleton_scalar_idx : Subsingleton S_.Idx := ⟨fun _ _ => funext fun d => d.elim0⟩

/-- One array's test: if the reduction by "and" of the comparisons "|x i| < +infinity" over all axes is 1, then every
    entry of x is a real number. -/
theorem real_of_all {s : Shape} {axes : List (Fin s.rank)}
    (hb : S_.BroadcastsInDim s (![] : Fin 0 → Fin s.rank)) (hr : s.ReducesTo axes S_) (hu : 0 < S_.numel)
    (x : FVec Ideal s .f32) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  have h1 := Host.reduce_andi_all _ _ hr hu j e i
  exact (RealOps.cmp_abs_lt_inf (x i)).1 h1

/-- If the printed finiteness test answers 1, every entry of every argument array is a real number. -/
theorem real_of_pre
    (x0 x1 x2 : FVec Ideal S131072x13x13 .f32) (x3 : FVec Ideal S131072x1 .f32)
    (x4 : FVec Ideal S169x169 .f32) (x5 : FVec Ideal S169 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h0 := congrFun h (fun d => d.elim0)
  dsimp only [Cert.Pre_finite_inputs.fn, Cert.Pre_finite_inputs.fn_part1, andi] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all _ _ _ x0 _ h0', real_of_all _ _ _ x1 _ h1, real_of_all _ _ _ x2 _ h2,
    real_of_all _ _ _ x3 _ h3, real_of_all _ _ _ x4 _ h4, real_of_all _ _ _ x5 _ h5⟩

end Cert.Finite

end
-- ==== Proof.LibTiles.lean ====
/-
  Sums over a batch cut into equal tiles.

  A batch of N = T · R rows cut into T tiles of R rows: summing each tile and then the tiles' sums is summing the batch,
  in any commutative monoid.  Row r of tile t is row t · R + r of the batch.
-/
import Mathlib.Algebra.BigOperators.Fin
import Mathlib.Logic.Equiv.Fin.Basic
import Mathlib.Algebra.BigOperators.Group.Finset.Basic
import Mathlib.Tactic.Ring
import Mathlib.Tactic.Linarith

namespace Cert.Tiles

/-- Row r of tile t lies in the batch. -/
theorem tile_lt {T R N : ℕ} (hN : T * R = N) (t : Fin T) (r : Fin R) : t.val * R + r.val < N := by
  have ht := t.isLt
  have hr := r.isLt
  calc t.val * R + r.val < t.val * R + R := by omega
    _ = (t.val + 1) * R := by ring
    _ ≤ T * R := Nat.mul_le_mul_right R ht
    _ = N := hN

/-- Row r of tile t as a row of the batch. -/
def row {T R N : ℕ} (hN : T * R = N) (t : Fin T) (r : Fin R) : Fin N := ⟨t.val * R + r.val, tile_lt hN t r⟩

/-- The tiles' sums add up to the batch's sum. -/
theorem sum_tiles {M : Type*} [AddCommMonoid M] {T R N : ℕ} (hN : T * R = N) (f : Fin N → M) :
    ∑ t : Fin T, ∑ r : Fin R, f (row hN t r) = ∑ i : Fin N, f i := by
  subst hN
  rw [← Equiv.sum_comp finProdFinEquiv f, Fintype.sum_prod_type]
  refine Finset.sum_congr rfl fun t _ => Finset.sum_congr rfl fun r _ => congrArg f (Fin.ext ?_)
  show t.val * R + r.val = r.val + R * t.val
  ring

end Cert.Tiles
-- ==== Proof.Spec.lean ====
/-
  The thermal residual of a 13 × 13 plate, and the two laws that join its two computations.

  For batch row b and node q the residual is
      conduction (b, q) + radiation (b, q) − load (b, q),
  conduction (b, q) = Σ_k T (b, k) · K (q, k), radiation (b, q) = (σ · e (q)) · (T (b, q)⁴ − Tenv (b)⁴) with each fourth
  power taken as a square of a square, load (b, q) = H (b, q) + I (b, q); the quantity of interest is the mean of its
  absolute value over the 131072 × 169 entries. The temperatures, heater and interface loads arrive as 131072 × 13 × 13
  arrays; node q of row b is the cell (b, q / 13, q % 13).

  First law (real inputs only): the conduction may be taken on centred temperatures,
      Σ_k (T (b, k) − c) · K (q, k) + c · (0 + Σ_k K (q, k)) = Σ_k T (b, k) · K (q, k),
  which is distributivity and so needs T, K and c to be real numbers — on the extended reals it fails at an infinity.
  Second law (any commutative monoid): the batch cut into 64 tiles of 2048 rows, the tiles' sums added 32 at a time
  and the two halves added, is the sum over the batch.
-/
import Idealize.ShloMosaic.Lib.ValueIdx
import Idealize.ShloMosaic.Lib.Pipeline.Value
import Idealize.ShloMosaic.PureOps.Ideal.Laws
import proofs.«118152_j8881992368533_2_alg».proof.Proof.LibRealOps
import proofs.«118152_j8881992368533_2_alg».proof.Proof.LibTiles

noncomputable section

namespace Cert.Residual

open Idealize.ShloMosaic Idealize.ShloMosaic.ValueIdx

/-! ## The layout: node q of row b in the 13 × 13 grid -/

/-- Node `q` of batch row `b`, as an index of the 131072 × 13 × 13 array: `(b, q / 13, q % 13)`. -/
def cell (b : Fin 131072) (q : Fin 169) : (⟨3, ![131072, 13, 13]⟩ : Shape).Idx :=
  ix3 b ⟨q.val / 13, by have := q.isLt; omega⟩ ⟨q.val % 13, by omega⟩

/-- The 131072 × 13 × 13 array flattened to 131072 × 169 reads, at `(b, q)`, the cell of node `q` of row `b`. -/
theorem reshape_cell {α : Type} (x : (⟨3, ![131072, 13, 13]⟩ : Shape).Idx → α)
    (h : (⟨3, ![131072, 13, 13]⟩ : Shape).ShapeCasts ⟨2, ![131072, 169]⟩) (b : Fin 131072) (q : Fin 169) :
    shapeCast ⟨2, ![131072, 169]⟩ x h (ix2 b q) = x (cell b q) :=
  shapeCast_apply x h _ _ (by
    rw [Shape.rowMajor_val_three, Shape.rowMajor_val_two]
    show (b.val * 13 + q.val / 13) * 13 + q.val % 13 = b.val * 169 + q.val
    omega)

/-! ## The residual -/

section
variable (x0 x1 x2 : (⟨3, ![131072, 13, 13]⟩ : Shape).Idx → EReal) (x3 : (⟨2, ![131072, 1]⟩ : Shape).Idx → EReal)
  (x4 : (⟨2, ![169, 169]⟩ : Shape).Idx → EReal) (x5 : (⟨1, ![169]⟩ : Shape).Idx → EReal) (σ : EReal)

/-- The radiation term at `(b, q)`: `(σ · e q) · (T⁴ − Tenv⁴)`, each fourth power a square of a square. -/
def radiation (b : Fin 131072) (q : Fin 169) : EReal :=
  (σ * x5 (ix1 q)) * ((x0 (cell b q) * x0 (cell b q)) * (x0 (cell b q) * x0 (cell b q))
    - (x3 (ix2 b 0) * x3 (ix2 b 0)) * (x3 (ix2 b 0) * x3 (ix2 b 0)))

/-- The heat load at `(b, q)`. -/
def load (b : Fin 131072) (q : Fin 169) : EReal := x1 (cell b q) + x2 (cell b q)

/-- The residual at `(b, q)`, the conduction taken directly. -/
def resid (b : Fin 131072) (q : Fin 169) : EReal :=
  ((∑ k : Fin 169, x0 (cell b k) * x4 (ix2 q k)) + radiation x0 x3 x5 σ b q) - load x1 x2 b q

end

/-- Distributivity over the reals, stated on the extended reals: for real `a k`, `d k`, `c`,
    `Σ_k (a k − c) · d k + c · (0 + Σ_k d k) = Σ_k a k · d k`. -/
theorem centred_sum {n : ℕ} (a d : Fin n → ℝ) (c : ℝ) :
    (∑ k : Fin n, ((a k : EReal) - (c : EReal)) * (d k : EReal)) + (c : EReal) * (0 + ∑ k : Fin n, (d k : EReal))
      = ∑ k : Fin n, (a k : EReal) * (d k : EReal) := by
  have e1 : ∀ k : Fin n, ((a k : EReal) - (c : EReal)) * (d k : EReal) = (((a k - c) * d k : ℝ) : EReal) := fun k => by
    rw [← EReal.coe_sub, ← EReal.coe_mul]
  have e2 : ∀ k : Fin n, (a k : EReal) * (d k : EReal) = ((a k * d k : ℝ) : EReal) := fun k => (EReal.coe_mul _ _).symm
  rw [Finset.sum_congr rfl fun k _ => e1 k, Finset.sum_congr rfl fun k _ => e2 k, zero_add,
    ← RealOps.coe_sum, ← RealOps.coe_sum, ← RealOps.coe_sum, ← EReal.coe_mul, ← EReal.coe_add]
  refine congrArg _ ?_
  rw [Finset.mul_sum, ← Finset.sum_add_distrib]
  exact Finset.sum_congr rfl fun k _ => by ring

/-- With real temperatures, a real conductance matrix and a real centre, the centred residual is the residual. -/
theorem residCentred_eq (x0 x1 x2 : (⟨3, ![131072, 13, 13]⟩ : Shape).Idx → EReal) (x3 : (⟨2, ![131072, 1]⟩ : Shape).Idx → EReal)
    (x4 : (⟨2, ![169, 169]⟩ : Shape).Idx → EReal) (x5 : (⟨1, ![169]⟩ : Shape).Idx → EReal) (σ : EReal) (c : ℝ)
    (h0 : ∀ i, ∃ r : ℝ, x0 i = (r : EReal)) (h4 : ∀ i, ∃ r : ℝ, x4 i = (r : EReal)) (b : Fin 131072) (q : Fin 169) :
    (((∑ k : Fin 169, (x0 (cell b k) - (c : EReal)) * x4 (ix2 q k)) + (c : EReal) * (0 + ∑ k : Fin 169, x4 (ix2 q k)))
        + radiation x0 x3 x5 σ b q) - load x1 x2 b q
      = resid x0 x1 x2 x3 x4 x5 σ b q := by
  choose a ha using h0
  choose d hd using h4
  unfold resid
  refine congrArg (fun z => (z + radiation x0 x3 x5 σ b q) - load x1 x2 b q) ?_
  have := centred_sum (fun k : Fin 169 => a (cell b k)) (fun k : Fin 169 => d (ix2 q k)) c
  simp only [ha, hd]
  exact this

/-- The centre the temperatures are taken around: the f32 word of 300. -/
theorem ofBits_300 : Ideal.ofBits .f32 0x43960000#32 = ((300 : ℝ) : EReal) := by
  simp [Ideal.ofBits, Ideal.ieee, -EReal.coe_mul]
  norm_num

/-- The absolute residual at `(b, q)`, -/
def absResid (x0 x1 x2 : (⟨3, ![131072, 13, 13]⟩ : Shape).Idx → EReal) (x3 : (⟨2, ![131072, 1]⟩ : Shape).Idx → EReal)
    (x4 : (⟨2, ![169, 169]⟩ : Shape).Idx → EReal) (x5 : (⟨1, ![169]⟩ : Shape).Idx → EReal) (σ : EReal)
    (b : Fin 131072) (q : Fin 169) : EReal :=
  max (resid x0 x1 x2 x3 x4 x5 σ b q) (-(resid x0 x1 x2 x3 x4 x5 σ b q))

/-- and a batch row's sum of absolute residuals over its 169 nodes. -/
def rowAbs (x0 x1 x2 : (⟨3, ![131072, 13, 13]⟩ : Shape).Idx → EReal) (x3 : (⟨2, ![131072, 1]⟩ : Shape).Idx → EReal)
    (x4 : (⟨2, ![169, 169]⟩ : Shape).Idx → EReal) (x5 : (⟨1, ![169]⟩ : Shape).Idx → EReal) (σ : EReal)
    (b : Fin 131072) : EReal :=
  ∑ q : Fin 169, absResid x0 x1 x2 x3 x4 x5 σ b q

/-! ## The batch as 2 × 32 tiles of 2048 rows -/

/-- The sum over the 2048 rows of tile `n` (`0` past the 64 tiles). -/
def tileSum {β : Type*} [AddCommMonoid β] (g : Fin 131072 → β) (n : ℕ) : β :=
  if h : n < 64 then ∑ r : Fin 2048, g (Cert.Tiles.row (T := 64) (R := 2048) (N := 131072) rfl ⟨n, h⟩ r) else 0

/-- The first 32 tiles' sums plus the last 32 tiles' sums: the sum over the batch. -/
theorem tileSum_total {β : Type*} [AddCommMonoid β] (g : Fin 131072 → β) :
    (∑ s ∈ Finset.range 32, tileSum g s) + ∑ s ∈ Finset.range 32, tileSum g (32 + s) = ∑ i : Fin 131072, g i := by
  rw [← Finset.sum_range_add (tileSum g) 32 32, Finset.sum_range (tileSum g),
    ← Cert.Tiles.sum_tiles (T := 64) (R := 2048) (N := 131072) rfl g]
  exact Finset.sum_congr rfl fun t _ => dif_pos t.isLt

end Cert.Residual

end
-- ==== Proof.RefSide.lean ====
/-
  The reference computes the mean absolute residual directly.

  Read one operation at a time, the reference's result is the sum, from zero, over all 131072 × 169 entries of the
  absolute residual — the conduction a plain matrix product against the conductances, contracted over the nodes —
  divided by the number of entries; the sum over the flattened index is the sum over batch rows of the rows' sums.
-/
import proofs.«118152_j8881992368533_2_alg».proof.Proof.Gen.ReferenceIdeal.Read
import proofs.«118152_j8881992368533_2_alg».proof.Proof.Spec

noncomputable section

namespace Cert.ReferenceIdeal.RefValue

open Idealize.ShloMosaic Idealize.ShloMosaic.ValueIdx
open Cert.ReferenceIdeal Cert.ReferenceIdeal.Read Cert.Residual

variable (x0 x1 x2 : (⟨3, ![131072, 13, 13]⟩ : Shape).Idx → EReal) (x3 : (⟨2, ![131072, 1]⟩ : Shape).Idx → EReal)
  (x4 : (⟨2, ![169, 169]⟩ : Shape).Idx → EReal) (x5 : (⟨1, ![169]⟩ : Shape).Idx → EReal)

theorem v0_cell (b : Fin 131072) (q : Fin 169) : val_main_v0 (F := Ideal) x0 (ix2 b q) = x0 (cell b q) := by
  unfold val_main_v0; exact reshape_cell x0 _ b q
theorem v1_cell (b : Fin 131072) (q : Fin 169) : val_main_v1 (F := Ideal) x1 (ix2 b q) = x1 (cell b q) := by
  unfold val_main_v1; exact reshape_cell x1 _ b q
theorem v2_cell (b : Fin 131072) (q : Fin 169) : val_main_v2 (F := Ideal) x2 (ix2 b q) = x2 (cell b q) := by
  unfold val_main_v2; exact reshape_cell x2 _ b q

theorem lidx_eq (b : Fin 131072) (q k : Fin 169) : lidx_main_v4 (ix2 b q) k = ix2 b k :=
  funext fun a => Fin.ext (by match a with | ⟨0, _⟩ => rfl | ⟨1, _⟩ => rfl)
theorem ridx_eq (b : Fin 131072) (q k : Fin 169) : ridx_main_v4 (ix2 b q) k = ix2 q k :=
  funext fun a => Fin.ext (by match a with | ⟨0, _⟩ => rfl | ⟨1, _⟩ => rfl)
theorem idx14_eq (b : Fin 131072) (q : Fin 169) : idx_main_v14 (ix2 b q) = ix2 (0 : Fin 1) q :=
  funext fun a => Fin.ext (by match a with | ⟨0, _⟩ => rfl | ⟨1, _⟩ => rfl)
theorem idx12_eq (b : Fin 131072) (q : Fin 169) : idx_main_v12 (ix2 b q) = ix2 b (0 : Fin 1) :=
  funext fun a => Fin.ext (by match a with | ⟨0, _⟩ => rfl | ⟨1, _⟩ => rfl)
theorem idx5_eq (q : Fin 169) : idx_main_v5 (ix2 (0 : Fin 1) q) = ix1 q :=
  funext fun a => Fin.ext (by match a with | ⟨0, _⟩ => rfl)

/-- The reference's absolute residual at `(b, q)`. -/
theorem abs_entry (b : Fin 131072) (q : Fin 169) :
    val_main_v18 (F := Ideal) x0 x1 x2 x3 x4 x5 (ix2 b q)
      = absResid x0 x1 x2 x3 x4 x5 (Ideal.ofBits .f32 0x3373864F#32) b q := by
  rw [val_main_v18_apply, val_main_v17_apply, val_main_v16_apply, val_main_v4_apply, val_main_v15_apply,
    val_main_v14_apply, val_main_v13_apply, val_main_v12_apply, val_main_v9_apply, val_main_v8_apply, val_main_v3_apply,
    idx14_eq, idx12_eq, val_main_v7_apply, val_main_v6_apply, val_main_v5_apply, val_main_cst_apply, idx5_eq,
    val_main_v11_apply, val_main_v10_apply]
  simp only [lidx_eq, ridx_eq, v0_cell, v1_cell, v2_cell]
  rfl

/-- The reference's result: the batch sum of the rows' sums of absolute residuals, from zero, over the entry count. -/
theorem result_eq :
    val_main_v20 (F := Ideal) x0 x1 x2 x3 x4 x5
      = fun _ => Ideal.div (0 + ∑ b : Fin 131072, rowAbs x0 x1 x2 x3 x4 x5 (Ideal.ofBits .f32 0x3373864F#32) b)
          (Ideal.ofBits .f32 0x4BA90000#32) := by
  funext i
  rw [val_main_v20_apply, val_main_v19_apply, val_main_cst_0_apply, val_main_cst_1_apply, sum_idx2]
  simp only [abs_entry]
  refine congrArg₂ Ideal.div (congrArg₂ (· + ·) Ideal.ofBits_zero_f32 rfl) rfl

end Cert.ReferenceIdeal.RefValue

end
-- ==== Proof.Pieces.lean ====
/-
  What one grid point's body leaves behind, as values of what it loads.

  The body forms the block of absolute residuals of the point's 2048 rows (a function `k0_pay3` of the seven loaded
  blocks), adds the block's total to every lane of a 1 × 1 × 128 accumulator held in scratch memory (`k0_pay1` of the
  block and of the accumulator's contents), and stores the sum back. At the first point of a run of 32 the accumulator
  is first set to zero (`k0_pay2`), so that point leaves the first total on top of zero; at the last point of a run the
  accumulator's new contents are also copied to the output's staging buffer.
-/
import proofs.«118152_j8881992368533_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point in the middle of a run: the accumulator, found at `xs0`, is left at `xs0` plus the block's total. -/
theorem scratch_B (c : Dev nD) (i : grid0.Coords) (arg2 : Memref sig .tc .vmem S2048x169 .f32) (harg2 : arg2.IsWhole) (arg3 : Memref sig .tc .vmem S2048x169 .f32) (harg3 : arg3.IsWhole) (arg4 : Memref sig .tc .vmem S2048x169 .f32) (harg4 : arg4.IsWhole) (arg5 : Memref sig .tc .vmem S2048x1 .f32) (harg5 : arg5.IsWhole) (arg6 : Memref sig .tc .vmem S169x169 .bf16) (harg6 : arg6.IsWhole) (arg7 : Memref sig .tc .vmem S1x169 .f32) (harg7 : arg7.IsWhole) (arg8 : Memref sig .tc .vmem S1x169 .f32) (harg8 : arg8.IsWhole) (arg9 : Memref sig .tc .vmem S1x1x128 .f32) (harg9 : arg9.IsWhole) (arg10 : Memref sig .tc .vmem S1x1x128 .f32) (harg10 : arg10.IsWhole) (hc0 : ¬cond0_0 i) (hc1 : ¬cond0_1 i) (x0 : Vec F S2048x169 .f32) (x1 : Vec F S2048x169 .f32) (x2 : Vec F S2048x169 .f32) (x3 : Vec F S2048x1 .f32) (x4 : Vec F S169x169 .bf16) (x5 : Vec F S1x169 .f32) (x6 : Vec F S1x169 .f32) (xs0 : Vec F S1x1x128 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x0 x1 x2 x4 x6 x3 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S1x1x128) hz3]
  simp only [View.readAt_eq_ld, harg2.read_unread, harg3.read_unread, harg4.read_unread, harg5.read_unread, harg6.read_unread, harg7.read_unread, harg8.read_unread, harg10.read_unread, View.ld_unit_zero (S := S2048x169) hz2, View.ld_unit_zero (S := S2048x1) hz2, View.ld_unit_zero (S := S169x169) hz2, View.ld_unit_zero (S := S1x169) hz2, View.ld_unit_zero (S := S1x1x128) hz3]

/-- The first point of a run: the accumulator is zeroed, then left at zero plus the block's total. -/
theorem scratch_A (c : Dev nD) (i : grid0.Coords) (arg2 : Memref sig .tc .vmem S2048x169 .f32) (harg2 : arg2.IsWhole) (arg3 : Memref sig .tc .vmem S2048x169 .f32) (harg3 : arg3.IsWhole) (arg4 : Memref sig .tc .vmem S2048x169 .f32) (harg4 : arg4.IsWhole) (arg5 : Memref sig .tc .vmem S2048x1 .f32) (harg5 : arg5.IsWhole) (arg6 : Memref sig .tc .vmem S169x169 .bf16) (harg6 : arg6.IsWhole) (arg7 : Memref sig .tc .vmem S1x169 .f32) (harg7 : arg7.IsWhole) (arg8 : Memref sig .tc .vmem S1x169 .f32) (harg8 : arg8.IsWhole) (arg9 : Memref sig .tc .vmem S1x1x128 .f32) (harg9 : arg9.IsWhole) (arg10 : Memref sig .tc .vmem S1x1x128 .f32) (harg10 : arg10.IsWhole) (hc0 : cond0_0 i) (hc1 : ¬cond0_1 i) (x0 : Vec F S2048x169 .f32) (x1 : Vec F S2048x169 .f32) (x2 : Vec F S2048x169 .f32) (x3 : Vec F S2048x1 .f32) (x4 : Vec F S169x169 .bf16) (x5 : Vec F S1x169 .f32) (x6 : Vec F S1x169 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay1 (k0_pay3 x0 x1 x2 x4 x6 x3 x5) k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, harg7.read_unread, harg8.read_unread, harg10.read_unread, View.ld_unit_zero (S := S2048x169) hz2, View.ld_unit_zero (S := S2048x1) hz2, View.ld_unit_zero (S := S169x169) hz2, View.ld_unit_zero (S := S1x169) hz2, View.ld_unit_zero (S := S1x1x128) hz3]

/-- The last point of a run leaves the accumulator as a middle point does, -/
theorem scratch_C (c : Dev nD) (i : grid0.Coords) (arg2 : Memref sig .tc .vmem S2048x169 .f32) (harg2 : arg2.IsWhole) (arg3 : Memref sig .tc .vmem S2048x169 .f32) (harg3 : arg3.IsWhole) (arg4 : Memref sig .tc .vmem S2048x169 .f32) (harg4 : arg4.IsWhole) (arg5 : Memref sig .tc .vmem S2048x1 .f32) (harg5 : arg5.IsWhole) (arg6 : Memref sig .tc .vmem S169x169 .bf16) (harg6 : arg6.IsWhole) (arg7 : Memref sig .tc .vmem S1x169 .f32) (harg7 : arg7.IsWhole) (arg8 : Memref sig .tc .vmem S1x169 .f32) (harg8 : arg8.IsWhole) (arg9 : Memref sig .tc .vmem S1x1x128 .f32) (harg9 : arg9.IsWhole) (arg10 : Memref sig .tc .vmem S1x1x128 .f32) (harg10 : arg10.IsWhole) (hc0 : ¬cond0_0 i) (hc1 : cond0_1 i) (x0 : Vec F S2048x169 .f32) (x1 : Vec F S2048x169 .f32) (x2 : Vec F S2048x169 .f32) (x3 : Vec F S2048x1 .f32) (x4 : Vec F S169x169 .bf16) (x5 : Vec F S1x169 .f32) (x6 : Vec F S1x169 .f32) (xs0 : Vec F S1x1x128 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x0 x1 x2 x4 x6 x3 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1x1x128) hz3]
  simp only [View.readAt_eq_ld, harg2.read_unread, harg3.read_unread, harg4.read_unread, harg5.read_unread, harg6.read_unread, harg7.read_unread, harg8.read_unread, harg10.read_unread, View.ld_unit_zero (S := S2048x169) hz2, View.ld_unit_zero (S := S2048x1) hz2, View.ld_unit_zero (S := S169x169) hz2, View.ld_unit_zero (S := S1x169) hz2, View.ld_unit_zero (S := S1x1x128) hz3]

/-- and copies the accumulator's new contents to the output's staging buffer. -/
theorem out_C (c : Dev nD) (i : grid0.Coords) (arg2 : Memref sig .tc .vmem S2048x169 .f32) (harg2 : arg2.IsWhole) (arg3 : Memref sig .tc .vmem S2048x169 .f32) (harg3 : arg3.IsWhole) (arg4 : Memref sig .tc .vmem S2048x169 .f32) (harg4 : arg4.IsWhole) (arg5 : Memref sig .tc .vmem S2048x1 .f32) (harg5 : arg5.IsWhole) (arg6 : Memref sig .tc .vmem S169x169 .bf16) (harg6 : arg6.IsWhole) (arg7 : Memref sig .tc .vmem S1x169 .f32) (harg7 : arg7.IsWhole) (arg8 : Memref sig .tc .vmem S1x169 .f32) (harg8 : arg8.IsWhole) (arg9 : Memref sig .tc .vmem S1x1x128 .f32) (harg9 : arg9.IsWhole) (arg10 : Memref sig .tc .vmem S1x1x128 .f32) (harg10 : arg10.IsWhole) (hc0 : ¬cond0_0 i) (hc1 : cond0_1 i) (x0 : Vec F S2048x169 .f32) (x1 : Vec F S2048x169 .f32) (x2 : Vec F S2048x169 .f32) (x3 : Vec F S2048x1 .f32) (x4 : Vec F S169x169 .bf16) (x5 : Vec F S1x169 .f32) (x6 : Vec F S1x169 .f32) (xs0 : Vec F S1x1x128 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x0 x1 x2 x4 x6 x3 x5) xs0 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1x1x128) hz3, View.readCov_unit_zero (S := S1x1x128) _ hz3]
  simp only [View.readAt_eq_ld, harg2.read_unread, harg3.read_unread, harg4.read_unread, harg5.read_unread, harg6.read_unread, harg7.read_unread, harg8.read_unread, harg10.read_unread, View.ld_unit_zero (S := S2048x169) hz2, View.ld_unit_zero (S := S2048x1) hz2, View.ld_unit_zero (S := S169x169) hz2, View.ld_unit_zero (S := S1x169) hz2, View.ld_unit_zero (S := S1x1x128) hz3]

end Cert.KernelIdeal.Pieces

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«118152_j8881992368533_2_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Totals.lean ====
/-
  The accumulator's step and the block of absolute residuals, read at an index on the extended reals.

  The step adds to every lane of the 1 × 1 × 128 accumulator the total of a 2048 × 169 block: the block's rows are
  summed along the lanes, the 2048 row sums are summed, and the one number is laid across the 128 lanes.
-/
import proofs.«118152_j8881992368533_2_alg».proof.Proof.Gen.KernelIdeal.Skeleton
import proofs.«118152_j8881992368533_2_alg».proof.Proof.LibRows
import proofs.«118152_j8881992368533_2_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Totals

open Idealize.ShloMosaic Idealize.ShloMosaic.ValueIdx
open Cert.KernelIdeal Cert.KernelIdeal.Gen

/-- The index of a 2048 × 1 column over its one column with the row `r` put back is `(r, 0)`. -/
theorem lift_col (h : S2048x1.Reduces [0] S1) (u : Fin 1) (r : Fin 2048) : h.lift (ix1 u) r = ix2 r u := by
  funext a
  match a with
  | ⟨0, _⟩ => exact Fin.ext rfl
  | ⟨1, _⟩ => exact Fin.ext rfl

/-- The total of a 2048 × 169 block, as the body forms it: rows first, then the column of row sums. -/
theorem blockTotal_apply (w : FVec Ideal S2048x169 .f32) :
    multiReduction .add [0] S1 (shapeCast S2048x1 (multiReduction .add [1] S2048 w 0x00000000#32 reduces_S2048x169_S2048 (.inl rfl) rfl) shapeCasts_S2048_S2048x1)
        0x00000000#32 reduces_S2048x1_S1 (.inl rfl) rfl (ix1 (0 : Fin 1))
      = ∑ r : Fin 2048, ∑ n : Fin 169, w (ix2 r n) := by
  refine (Ideal.multiReduction_add_single _ 0x00000000#32 reduces_S2048x1_S1 (.inl rfl) rfl (ix1 (0 : Fin 1))).trans ?_
  refine Finset.sum_congr rfl fun (r : Fin 2048) _ => ?_
  refine (congrArg (shapeCast S2048x1 _ shapeCasts_S2048_S2048x1) (lift_col reduces_S2048x1_S1 0 r)).trans ?_
  refine (Cert.LibColumn.shapeCast_a_a1_apply _ shapeCasts_S2048_S2048x1 r 0).trans ?_
  exact Cert.LibRows.rowSum_apply w 0x00000000#32 reduces_S2048x169_S2048 (.inl rfl) rfl r

/-- The step at lane `l`: the accumulator's entry plus the block's total. -/
theorem step_apply (w : FVec Ideal S2048x169 .f32) (acc : FVec Ideal S1x1x128 .f32) (l : Fin 128) :
    k0_pay1 (F := Ideal) w acc (ix3 (0 : Fin 1) (0 : Fin 1) l) = acc (ix3 (0 : Fin 1) (0 : Fin 1) l) + ∑ r : Fin 2048, ∑ n : Fin 169, w (ix2 r n) := by
  unfold k0_pay1
  dsimp only
  rw [shapeCast_self]
  show acc (ix3 (0 : Fin 1) (0 : Fin 1) l) + _ = _
  refine congrArg (acc (ix3 (0 : Fin 1) (0 : Fin 1) l) + ·) ?_
  refine (broadcastTo_apply _ broadcasts_S1x1x1_S1x1x128 (ix3 (0 : Fin 1) (0 : Fin 1) l) (ix3 (0 : Fin 1) (0 : Fin 1) (0 : Fin 1)) fun ax => ?_).trans ?_
  · match ax with
    | ⟨0, _⟩ => show 0 = if (1 : ℕ) = 1 then 0 else _; rw [if_pos rfl]
    | ⟨1, _⟩ => show 0 = if (1 : ℕ) = 1 then 0 else _; rw [if_pos rfl]
    | ⟨2, _⟩ => show 0 = if (1 : ℕ) = 1 then 0 else _; rw [if_pos rfl]
  refine (shapeCast_apply _ shapeCasts_S1x1_S1x1x1 (ix3 (0 : Fin 1) (0 : Fin 1) (0 : Fin 1)) (ix2 (0 : Fin 1) (0 : Fin 1)) (by
    rw [Shape.rowMajor_val_two, Shape.rowMajor_val_three]; rfl)).trans ?_
  refine (shapeCast_apply _ shapeCasts_S1_S1x1 (ix2 (0 : Fin 1) (0 : Fin 1)) (ix1 (0 : Fin 1)) (by
    rw [Shape.rowMajor_val_one, Shape.rowMajor_val_two]; rfl)).trans ?_
  exact blockTotal_apply w

/-- The reset value of the accumulator is zero at every lane. -/
theorem reset_apply (i : S1x1x128.Idx) : k0_pay2 (F := Ideal) i = 0 := by
  unfold k0_pay2
  rw [shapeCast_self]
  exact Ideal.ofBits_zero_f32

/-- The block of absolute residuals at row `r`, node `q`, from the seven loaded blocks: temperatures `t`, heater and
    interface loads `hl`, `il`, the fourth powers of the ambient temperature `e4`, the transposed conductances `kt`
    (taken as they are: narrowing the format does nothing on the extended reals), emissivities `em`, and the
    conductances' row sums `rs`. -/
theorem absBlock_apply (t hl il : FVec Ideal S2048x169 .f32) (kt : FVec Ideal S169x169 .bf16) (rs : FVec Ideal S1x169 .f32)
    (e4 : FVec Ideal S2048x1 .f32) (em : FVec Ideal S1x169 .f32) (r : Fin 2048) (q : Fin 169) :
    k0_pay3 (F := Ideal) t hl il kt rs e4 em (ix2 r q)
      = max ((((∑ k : Fin 169, (t (ix2 r k) - Ideal.ofBits .f32 0x43960000#32) * kt (ix2 k q))
              + Ideal.ofBits .f32 0x43960000#32 * rs (ix2 (0 : Fin 1) q))
            + (Ideal.ofBits .f32 0x3373864F#32 * em (ix2 (0 : Fin 1) q))
              * ((t (ix2 r q) * t (ix2 r q)) * (t (ix2 r q) * t (ix2 r q)) - e4 (ix2 r (0 : Fin 1))))
          - (hl (ix2 r q) + il (ix2 r q)))
        (-((((∑ k : Fin 169, (t (ix2 r k) - Ideal.ofBits .f32 0x43960000#32) * kt (ix2 k q))
              + Ideal.ofBits .f32 0x43960000#32 * rs (ix2 (0 : Fin 1) q))
            + (Ideal.ofBits .f32 0x3373864F#32 * em (ix2 (0 : Fin 1) q))
              * ((t (ix2 r q) * t (ix2 r q)) * (t (ix2 r q) * t (ix2 r q)) - e4 (ix2 r (0 : Fin 1))))
          - (hl (ix2 r q) + il (ix2 r q)))) := by
  unfold k0_pay3
  simp only [shapeCast_self]
  refine congrArg (fun z : EReal => max z (-z)) ?_
  refine congrArg (· - (hl (ix2 r q) + il (ix2 r q))) ?_
  refine congrArg₂ (· + ·) (congrArg₂ (· + ·) ?_ ?_) (congrArg₂ (· * ·) ?_ (congrArg ((t (ix2 r q) * t (ix2 r q)) * (t (ix2 r q) * t (ix2 r q)) - ·) ?_))
  · exact Cert.LibDot.matmul_zero_plain_apply dot_S2048x169_S169x169_S2048x169_1_0_0_1_n_n rfl rfl rfl rfl rfl rfl none
      (truncf .bf16 (subf t (broadcast S2048x169 (FloatOps.ofBits .f32 0x43960000#32))) bitsLt_bf16_f32) kt (ix2 r q)
  · exact broadcastTo_1b_ab_apply (mulf (broadcast S1x169 (FloatOps.ofBits .f32 0x43960000#32)) rs) broadcasts_S1x169_S2048x169 r q
  · exact broadcastTo_1b_ab_apply (mulf (broadcast S1x169 (FloatOps.ofBits .f32 0x3373864F#32)) em) broadcasts_S1x169_S2048x169 r q
  · exact Cert.LibColumn.broadcastTo_a1_ab_apply e4 broadcasts_S2048x1_S2048x169 r q

end Cert.KernelIdeal.Totals

end
-- ==== Proof.Accum.lean ====
/-
  The accumulator across a run of 32 grid points.

  The 64 grid points are two runs of 32. The scratch accumulator is reset at the first point of a run and every point
  adds the total of its block of absolute residuals to every lane; so after point t every lane holds the sum of the
  totals of the points of t's run up to t, and after the last point of a run — when the accumulator is also copied to
  the output's staging buffer and written back — the sum of the run's 32 totals.
-/
import proofs.«118152_j8881992368533_2_alg».proof.Proof.Pieces
import proofs.«118152_j8881992368533_2_alg».proof.Proof.Totals

noncomputable section

namespace Cert.KernelIdeal.Accum

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The block of absolute residuals point `t` forms from the blocks it reads. -/
abbrev absBlock (c : Dev nD) (t : Fin cfg0.N) : FVec Ideal S2048x169 .f32 :=
  k0_pay3 (F := Ideal) (iblk m c 0 t) (iblk m c 1 t) (iblk m c 2 t) (iblk m c 4 t) (iblk m c 6 t) (iblk m c 3 t) (iblk m c 5 t)

/-- The total of point `n`'s block (`0` past the grid). -/
def tileTotal (c : Dev nD) (n : ℕ) : EReal :=
  if h : n < cfg0.N then ∑ r : Fin 2048, ∑ q : Fin 169, absBlock m c ⟨n, h⟩ (ix2 r q) else 0

/-- A 1 × 1 × 128 index is `(0, 0, l)`. -/
theorem lane_idx (i : S1x1x128.Idx) : ∃ l : Fin 128, i = ix3 (0 : Fin 1) (0 : Fin 1) l := by
  refine ⟨i 2, ?_⟩
  have h := eq_ix3 i
  have h0 : i 0 = (0 : Fin 1) := Fin.ext (by have : (i 0).val < 1 := (i 0).isLt; show (i 0).val = 0; omega)
  have h1 : i 1 = (0 : Fin 1) := Fin.ext (by have : (i 1).val < 1 := (i 1).isLt; show (i 1).val = 0; omega)
  rw [h0, h1] at h
  exact h

/-- What the first point of a run leaves in the accumulator, -/
abbrev resetAt (c : Dev nD) (n : ℕ) (h : n < cfg0.N) : Vec Ideal S1x1x128 .f32 :=
  k0_pay1 (F := Ideal) (absBlock m c ⟨n, h⟩) (k0_pay2 (F := Ideal))
/-- and what any later point leaves, from what it found. -/
abbrev stepAt (c : Dev nD) (n : ℕ) (h : n < cfg0.N) (acc : Vec Ideal S1x1x128 .f32) : Vec Ideal S1x1x128 .f32 :=
  k0_pay1 (F := Ideal) (absBlock m c ⟨n, h⟩) acc

theorem scratch_reset (c : Dev nD) (n : ℕ) (h : n < cfg0.N) (h0 : n % 32 = 0) :
    (outsAt0 m c n h).2 = resetAt m c n h := by
  have h1 : ¬n % 32 = 31 := by omega
  rw [outsAt0_A m c ⟨n, h⟩ h0 h1]
  dsimp only
  exact Pieces.scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) ((hcond0_0 ⟨n, h⟩).mpr h0) (fun h' => h1 ((hcond0_1 ⟨n, h⟩).mp h')) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩)

theorem scratch_step (c : Dev nD) (n : ℕ) (h : n + 1 < cfg0.N) (h0 : ¬(n + 1) % 32 = 0) :
    (outsAt0 m c (n + 1) h).2 = stepAt m c (n + 1) h (outsAt0 m c n (Nat.lt_of_succ_lt h)).2 := by
  by_cases h1 : (n + 1) % 32 = 31
  · rw [outsAt0_C m c ⟨n + 1, h⟩ h0 h1]
    dsimp only
    exact Pieces.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun h' => h0 ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2
  · rw [outsAt0_B m c ⟨n + 1, h⟩ h0 h1]
    dsimp only
    exact Pieces.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun h' => h0 ((hcond0_0 ⟨n + 1, h⟩).mp h')) (fun h' => h1 ((hcond0_1 ⟨n + 1, h⟩).mp h')) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2

/-- After point `t` every lane of the accumulator holds the sum of the totals of `t`'s run up to `t`. -/
theorem scratch_eq (c : Dev nD) (t : ℕ) (ht : t < cfg0.N) (l : Fin 128) :
    (outsAt0 m c t ht).2 (ix3 (0 : Fin 1) (0 : Fin 1) l)
      = 0 + ∑ s ∈ Finset.range (t % 32 + 1), tileTotal m c (32 * (t / 32) + s) := by
  have h' : 32 * (t / 32) + t % 32 < cfg0.N := by rw [Nat.div_add_mod]; exact ht
  refine (congrFun (Pipeline.eq_accAt_of_mod (fun n h => (outsAt0 m c n h).2) 32 (resetAt m c) (stepAt m c)
    (scratch_reset m c) (scratch_step m c) (by decide) t ht h') _).trans ?_
  refine Pipeline.accAt_add_apply (resetAt m c) (stepAt m c) (fun _ => (0 : EReal)) (fun n _ => tileTotal m c n)
    (32 * (t / 32)) 31 (fun h i => ?_) (fun n h acc i _ _ => ?_) (t % 32) (by omega) h' _
  · obtain ⟨l', rfl⟩ := lane_idx i
    refine (Totals.step_apply _ _ l').trans (congrArg₂ (· + ·) (Totals.reset_apply _) ?_)
    show _ = tileTotal m c (32 * (t / 32))
    unfold tileTotal
    rw [dif_pos h]
  · obtain ⟨l', rfl⟩ := lane_idx i
    refine (Totals.step_apply _ _ l').trans (congrArg (acc (ix3 (0 : Fin 1) (0 : Fin 1) l') + ·) ?_)
    show _ = tileTotal m c n
    unfold tileTotal
    rw [dif_pos h]

/-- The last point of a run hands the output's staging buffer the sum of the run's 32 totals, at every lane. -/
theorem out_eq (c : Dev nD) (t : Fin cfg0.N) (h31 : t.val % 32 = 31) (l : Fin 128) :
    (outsAt0 m c t.val t.isLt).1 (ix3 (0 : Fin 1) (0 : Fin 1) l)
      = 0 + ∑ s ∈ Finset.range 32, tileTotal m c (32 * (t.val / 32) + s) := by
  have h0 : ¬t.val % 32 = 0 := by omega
  have e1 : (outsAt0 m c t.val t.isLt).1 = (outsAt0 m c t.val t.isLt).2 := by
    rw [outsAt0_C m c t h0 h31]
    dsimp only
    exact (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h' => h0 ((hcond0_0 t).mp h')) ((hcond0_1 t).mpr h31) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).trans
      (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h' => h0 ((hcond0_0 t).mp h')) ((hcond0_1 t).mpr h31) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).symm
  rw [e1, scratch_eq m c t.val t.isLt l, h31]

end Cert.KernelIdeal.Accum

end
-- ==== Proof.Blocks.lean ====
/-
  The blocks a grid point reads, as entries of the argument arrays.

  Point t (of 64) stages rows t · 2048 … t · 2048 + 2047 of the flattened temperature, heater and interface arrays and
  of the fourth powers of the ambient temperature, and, whole, the transposed conductance matrix, the emissivities as a
  row, and the conductances' row sums as a row. The arrays staged are results of the operations before the launch:
  flattenings, products, a transpose, a sum along the second axis from zero.
-/
import proofs.«118152_j8881992368533_2_alg».proof.Proof.Gen.KernelIdeal.Frame
import proofs.«118152_j8881992368533_2_alg».proof.Proof.Spec
import proofs.«118152_j8881992368533_2_alg».proof.Proof.LibRows
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Blocks

open Idealize.ShloMosaic Idealize.ShloMosaic.TcCoe Idealize.SL.Sem Idealize.ShloMosaic.ValueIdx
open Cert.KernelIdeal Cert.KernelIdeal.Gen Cert.Residual

variable (m : (ℓ : Loc nD τ sig) → Buf (Elt Ideal) ℓ)

/-- The six argument arrays on core `c`, as functions into the extended reals. -/
abbrev argT (c : Dev nD) : (⟨3, ![131072, 13, 13]⟩ : Shape).Idx → EReal := m ((c : Thread nD τ).loc main_arg0)
abbrev argH (c : Dev nD) : (⟨3, ![131072, 13, 13]⟩ : Shape).Idx → EReal := m ((c : Thread nD τ).loc main_arg1)
abbrev argI (c : Dev nD) : (⟨3, ![131072, 13, 13]⟩ : Shape).Idx → EReal := m ((c : Thread nD τ).loc main_arg2)
abbrev argA (c : Dev nD) : (⟨2, ![131072, 1]⟩ : Shape).Idx → EReal := m ((c : Thread nD τ).loc main_arg3)
abbrev argK (c : Dev nD) : (⟨2, ![169, 169]⟩ : Shape).Idx → EReal := m ((c : Thread nD τ).loc main_arg4)
abbrev argE (c : Dev nD) : (⟨1, ![169]⟩ : Shape).Idx → EReal := m ((c : Thread nD τ).loc main_arg5)

/-- Row `r` of tile `t` as a row of the batch: `t · 2048 + r`. -/
def brow (t : Fin cfg0.N) (r : Fin 2048) : Fin 131072 :=
  Cert.Tiles.row (T := 64) (R := 2048) (N := 131072) rfl ⟨t.val, lt_of_lt_of_eq t.isLt N_0⟩ r

/-- Where each window's block sits at point `t`: the four row-tiled inputs at block row `t`, the three resident
    inputs at their only block, the output at block `t / 32`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val / 32 ∧ win0_7.index t (1 : Fin 3) = 0 ∧ win0_7.index t (2 : Fin 3) = 0) :=
  (by decide +kernel : ∀ t : Fin grid0.N, _)

/-! ## The staged arrays, from the operations before the launch -/

theorem V_v0 (c : Dev nD) : (V m c main_v0 : S131072x169.Idx → EReal)
    = shapeCast S131072x169 (m ((c : Thread nD τ).loc main_arg0)) shapeCasts_S131072x13x13_S131072x169 := by
  show StableHlo.after hostOps0 (fun b => m (c, b)) (Proc.devRef .tc main_v0) = _
  after_results; rfl

theorem V_v1 (c : Dev nD) : (V m c main_v1 : S131072x169.Idx → EReal)
    = shapeCast S131072x169 (m ((c : Thread nD τ).loc main_arg1)) shapeCasts_S131072x13x13_S131072x169 := by
  show StableHlo.after hostOps0 (fun b => m (c, b)) (Proc.devRef .tc main_v1) = _
  after_results; rfl

theorem V_v2 (c : Dev nD) : (V m c main_v2 : S131072x169.Idx → EReal)
    = shapeCast S131072x169 (m ((c : Thread nD τ).loc main_arg2)) shapeCasts_S131072x13x13_S131072x169 := by
  show StableHlo.after hostOps0 (fun b => m (c, b)) (Proc.devRef .tc main_v2) = _
  after_results; rfl

theorem V_v5 (c : Dev nD) (a3 : FVec Ideal S131072x1 .f32) (h3 : a3 = m ((c : Thread nD τ).loc main_arg3)) :
    (V m c main_v5 : S131072x1.Idx → EReal) = mulf (mulf a3 a3) (mulf a3 a3) := by
  subst h3
  show StableHlo.after hostOps0 (fun b => m (c, b)) (Proc.devRef .tc main_v5) = _
  after_results

theorem V_v7 (c : Dev nD) (k4 : FVec Ideal S169x169 .f32) (h4 : k4 = m ((c : Thread nD τ).loc main_arg4)) :
    (V m c main_v7 : S169x169.Idx → EReal)
      = truncf .bf16 (transpose S169x169 [1, 0] k4 transposes_S169x169_S169x169_1_0) bitsLt_bf16_f32 := by
  subst h4
  show StableHlo.after hostOps0 (fun b => m (c, b)) (Proc.devRef .tc main_v7) = _
  after_results

theorem V_v8 (c : Dev nD) : (V m c main_v8 : S1x169.Idx → EReal)
    = shapeCast S1x169 (m ((c : Thread nD τ).loc main_arg5)) shapeCasts_S169_S1x169 := by
  show StableHlo.after hostOps0 (fun b => m (c, b)) (Proc.devRef .tc main_v8) = _
  after_results; rfl

theorem V_v10 (c : Dev nD) : (V m c main_v10 : S1x169.Idx → EReal)
    = shapeCast S1x169 (Host.reduceAdd (F := Ideal) (m ((c : Thread nD τ).loc main_arg4)) (constant (F := Ideal) S_ .f32 0x00000000#32)
        reducesTo_S169x169_S169_d1 h_S_) shapeCasts_S169_S1x169 := by
  show StableHlo.after hostOps0 (fun b => m (c, b)) (Proc.devRef .tc main_v10) = _
  after_results; rfl

/-! ## The blocks read at an index -/

/-- The temperature block of point \`t\` at \`(r, k)\`: node \`k\` of batch row \`t · 2048 + r\`. -/
theorem blk_temp (c : Dev nD) (t : Fin cfg0.N) (r : Fin 2048) (k : Fin 169) :
    iblk m c 0 t (ix2 r k) = argT m c (cell (brow t r) k) := by
  have e : iblk m c 0 t (ix2 r k) = V m c main_v0 (ix2 (brow t r) k) := by
    unfold iblk
    rw [View.read_apply]
    show V m c main_v0 _ = V m c main_v0 _
    refine congrArg (V m c main_v0) ?_
    funext a; apply Fin.ext
    match a with
    | ⟨0, _⟩ => show win0_0.index t (0 : Fin 2) * 2048 + 1 * r.val = t.val * 2048 + r.val; rw [(idx_facts t).1.1]; omega
    | ⟨1, _⟩ => show win0_0.index t (1 : Fin 2) * 169 + 1 * k.val = k.val; rw [(idx_facts t).1.2]; omega
  rw [e, V_v0]
  exact reshape_cell _ _ _ _

/-- The heater block likewise. -/
theorem blk_heat (c : Dev nD) (t : Fin cfg0.N) (r : Fin 2048) (k : Fin 169) :
    iblk m c 1 t (ix2 r k) = argH m c (cell (brow t r) k) := by
  have e : iblk m c 1 t (ix2 r k) = V m c main_v1 (ix2 (brow t r) k) := by
    unfold iblk
    rw [View.read_apply]
    show V m c main_v1 _ = V m c main_v1 _
    refine congrArg (V m c main_v1) ?_
    funext a; apply Fin.ext
    match a with
    | ⟨0, _⟩ => show win0_1.index t (0 : Fin 2) * 2048 + 1 * r.val = t.val * 2048 + r.val; rw [(idx_facts t).2.1.1]; omega
    | ⟨1, _⟩ => show win0_1.index t (1 : Fin 2) * 169 + 1 * k.val = k.val; rw [(idx_facts t).2.1.2]; omega
  rw [e, V_v1]
  exact reshape_cell _ _ _ _

/-- The interface block likewise. -/
theorem blk_iface (c : Dev nD) (t : Fin cfg0.N) (r : Fin 2048) (k : Fin 169) :
    iblk m c 2 t (ix2 r k) = argI m c (cell (brow t r) k) := by
  have e : iblk m c 2 t (ix2 r k) = V m c main_v2 (ix2 (brow t r) k) := by
    unfold iblk
    rw [View.read_apply]
    show V m c main_v2 _ = V m c main_v2 _
    refine congrArg (V m c main_v2) ?_
    funext a; apply Fin.ext
    match a with
    | ⟨0, _⟩ => show win0_2.index t (0 : Fin 2) * 2048 + 1 * r.val = t.val * 2048 + r.val; rw [(idx_facts t).2.2.1.1]; omega
    | ⟨1, _⟩ => show win0_2.index t (1 : Fin 2) * 169 + 1 * k.val = k.val; rw [(idx_facts t).2.2.1.2]; omega
  rw [e, V_v2]
  exact reshape_cell _ _ _ _

/-- The ambient block of point `t` at row `r`: the fourth power of batch row `t · 2048 + r`'s ambient temperature, a
    square of a square. -/
theorem blk_amb (c : Dev nD) (t : Fin cfg0.N) (r : Fin 2048) :
    iblk m c 3 t (ix2 r (0 : Fin 1))
      = (argA m c (ix2 (brow t r) 0) * argA m c (ix2 (brow t r) 0)) * (argA m c (ix2 (brow t r) 0) * argA m c (ix2 (brow t r) 0)) := by
  have e : iblk m c 3 t (ix2 r (0 : Fin 1)) = V m c main_v5 (ix2 (brow t r) (0 : Fin 1)) := by
    unfold iblk
    rw [View.read_apply]
    show V m c main_v5 _ = V m c main_v5 _
    refine congrArg (V m c main_v5) ?_
    funext a; apply Fin.ext
    match a with
    | ⟨0, _⟩ => show win0_3.index t (0 : Fin 2) * 2048 + 1 * r.val = t.val * 2048 + r.val; rw [(idx_facts t).2.2.2.1.1]; omega
    | ⟨1, _⟩ => show win0_3.index t (1 : Fin 2) * 1 + 1 * 0 = 0; rw [(idx_facts t).2.2.2.1.2]
  rw [e, V_v5 m c _ rfl]
  rfl

/-- The resident conductance block at `(k, q)`: the matrix's entry `(q, k)` (it is staged transposed). -/
theorem blk_cond (c : Dev nD) (t : Fin cfg0.N) (k q : Fin 169) :
    iblk m c 4 t (ix2 k q) = argK m c (ix2 q k) := by
  have e : iblk m c 4 t (ix2 k q) = V m c main_v7 (ix2 k q) := by
    unfold iblk
    rw [View.read_apply]
    show V m c main_v7 _ = V m c main_v7 _
    refine congrArg (V m c main_v7) ?_
    funext a; apply Fin.ext
    match a with
    | ⟨0, _⟩ => show win0_4.index t (0 : Fin 2) * 169 + 1 * k.val = k.val; rw [(idx_facts t).2.2.2.2.1.1]; omega
    | ⟨1, _⟩ => show win0_4.index t (1 : Fin 2) * 169 + 1 * q.val = q.val; rw [(idx_facts t).2.2.2.2.1.2]; omega
  rw [e, V_v7 m c _ rfl]
  exact transpose_ix2_apply (m ((c : Thread nD τ).loc main_arg4)) transposes_S169x169_S169x169_1_0 k q

/-- The resident emissivity row at `q`. -/
theorem blk_emis (c : Dev nD) (t : Fin cfg0.N) (q : Fin 169) :
    iblk m c 5 t (ix2 (0 : Fin 1) q) = argE m c (ix1 q) := by
  have e : iblk m c 5 t (ix2 (0 : Fin 1) q) = V m c main_v8 (ix2 (0 : Fin 1) q) := by
    unfold iblk
    rw [View.read_apply]
    show V m c main_v8 _ = V m c main_v8 _
    refine congrArg (V m c main_v8) ?_
    funext a; apply Fin.ext
    match a with
    | ⟨0, _⟩ => show win0_5.index t (0 : Fin 2) * 1 + 1 * 0 = 0; rw [(idx_facts t).2.2.2.2.2.1.1]
    | ⟨1, _⟩ => show win0_5.index t (1 : Fin 2) * 169 + 1 * q.val = q.val; rw [(idx_facts t).2.2.2.2.2.1.2]; omega
  rw [e, V_v8]
  exact shapeCast_a_1a_apply _ shapeCasts_S169_S1x169 0 q

/-- The resident row of row sums at `q`: the sum of row `q` of the conductance matrix, from zero. -/
theorem blk_rowsum (c : Dev nD) (t : Fin cfg0.N) (q : Fin 169) :
    iblk m c 6 t (ix2 (0 : Fin 1) q) = 0 + ∑ k : Fin 169, argK m c (ix2 q k) := by
  have e : iblk m c 6 t (ix2 (0 : Fin 1) q) = V m c main_v10 (ix2 (0 : Fin 1) q) := by
    unfold iblk
    rw [View.read_apply]
    show V m c main_v10 _ = V m c main_v10 _
    refine congrArg (V m c main_v10) ?_
    funext a; apply Fin.ext
    match a with
    | ⟨0, _⟩ => show win0_6.index t (0 : Fin 2) * 1 + 1 * 0 = 0; rw [(idx_facts t).2.2.2.2.2.2.1.1]
    | ⟨1, _⟩ => show win0_6.index t (1 : Fin 2) * 169 + 1 * q.val = q.val; rw [(idx_facts t).2.2.2.2.2.2.1.2]; omega
  rw [e, V_v10]
  refine (shapeCast_a_1a_apply _ shapeCasts_S169_S1x169 0 q).trans ?_
  simp only [Host.reduceAdd, Ideal.hostReduceAdd_def]
  refine (Ideal.hostReduceAdd_single reducesTo_S169x169_S169_d1 (by decide : S169x169.Reduces [1] S169) _ _ (ix1 q)).trans ?_
  refine congrArg₂ (· + ·) Ideal.ofBits_zero_f32 (Finset.sum_congr rfl fun (k : Fin 169) _ => ?_)
  exact congrArg _ (Cert.LibRows.lift_row _ q k)

end Cert.KernelIdeal.Blocks

end
-- ==== Proof.Final.lean ====
/-
  The kernel's result: the output array after the run, and what the operations after the launch make of it.

  The output is a 2 × 1 × 128 array of two blocks; block k is written back once, after the last point of run k, with the
  sum of that run's 32 totals at every lane. The operations after the launch take lane 0 of each block, add the two
  from zero, and divide by the number of entries.
-/
import proofs.«118152_j8881992368533_2_alg».proof.Proof.Accum
import proofs.«118152_j8881992368533_2_alg».proof.Proof.Blocks
import Idealize.ShloMosaic.Lib.StableHlo.Run

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum

variable (m : (ℓ : Loc nD τ sig) → Buf (Elt Ideal) ℓ) (ρ : Dev nD → PrngReg)

/-- The output array after the run: entry `(k, 0, l)` is the sum of the totals of run `k`'s 32 points. -/
def G (c : Dev nD) : S2x1x128.Idx → EReal :=
  fun i => 0 + ∑ s ∈ Finset.range 32, tileTotal m c (32 * (i 0).val + s)

/-- What a flushing point writes back is its block of `G`. -/
theorem flushed_eq (c : Dev nD) (t : Fin cfg0.N) (hf : (cfg0.win 7).flush t = true) :
    (dats m 0 c).flushed 7 t = ((cfg0.win 7).blk t).view.read (Elt Ideal) (G m c) := by
  have h31 : t.val % 32 = 31 := (flush0_7 t).mp hf
  show (cfg0.win 7).cut (grid0.coords t) ((dats m 0 c).after 7 t) = _
  rw [after0_7]
  funext j
  obtain ⟨l, rfl⟩ := lane_idx j
  show (outsAt0 m c t.val t.isLt).1 (ix3 (0 : Fin 1) (0 : Fin 1) l) = G m c (((cfg0.win 7).blk t).view.emb (ix3 (0 : Fin 1) (0 : Fin 1) l))
  rw [out_eq m c t h31 l]
  have e : ((((cfg0.win 7).blk t).view.emb (ix3 (0 : Fin 1) (0 : Fin 1) l)) 0).val = t.val / 32 := by
    show win0_7.index t (0 : Fin 3) * 1 + 1 * 0 = t.val / 32
    rw [(idx_facts t).2.2.2.2.2.2.2.1]; omega
  simp only [G]
  rw [e]

/-- An index of the output array is in point `t`'s block iff each coordinate is in the block's range. -/
theorem mem_blk (t : Fin cfg0.N) (i : S2x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v11).slice (win0_7.rect t)).set ↔ _
  rw [View.set_slice_whole, Rect.mem_set_unit]
  exact Iff.rfl

/-- Every entry of the output array is in the block the last point of its run writes back. -/
theorem cover (i : S2x1x128.Idx) : ∃ t : Fin cfg0.N, (cfg0.win 7).flush t = true ∧ i ∈ ((cfg0.win 7).blk t).view.set := by
  have hN : cfg0.N = 64 := N_0
  have hi0 : (i 0).val < 2 := (i 0).isLt
  have hi1 : (i 1).val < 1 := (i 1).isLt
  have hi2 : (i 2).val < 128 := (i 2).isLt
  have ht : 32 * (i 0).val + 31 < cfg0.N := by omega
  refine ⟨⟨32 * (i 0).val + 31, ht⟩, (flush0_7 _).mpr (by show (32 * (i 0).val + 31) % 32 = 31; omega), ?_⟩
  rw [mem_blk]
  obtain ⟨e0, e1, e2⟩ := (idx_facts ⟨32 * (i 0).val + 31, ht⟩).2.2.2.2.2.2.2
  intro a
  match a with
  | ⟨0, _⟩ =>
    show win0_7.index ⟨32 * (i 0).val + 31, ht⟩ (0 : Fin 3) * 1 ≤ (i 0).val ∧ (i 0).val < win0_7.index ⟨32 * (i 0).val + 31, ht⟩ (0 : Fin 3) * 1 + 1
    rw [e0]; show (32 * (i 0).val + 31) / 32 * 1 ≤ (i 0).val ∧ (i 0).val < (32 * (i 0).val + 31) / 32 * 1 + 1; omega
  | ⟨1, _⟩ =>
    show win0_7.index ⟨32 * (i 0).val + 31, ht⟩ (1 : Fin 3) * 1 ≤ (i 1).val ∧ (i 1).val < win0_7.index ⟨32 * (i 0).val + 31, ht⟩ (1 : Fin 3) * 1 + 1
    rw [e1]; omega
  | ⟨2, _⟩ =>
    show win0_7.index ⟨32 * (i 0).val + 31, ht⟩ (2 : Fin 3) * 128 ≤ (i 2).val ∧ (i 2).val < win0_7.index ⟨32 * (i 0).val + 31, ht⟩ (2 : Fin 3) * 128 + 128
    rw [e2]; omega

/-- The output array after the run. -/
theorem final (c : Dev nD) : (dats m 0 c).arrAt 7 cfg0.N = G m c :=
  (dats m 0 c).arrAt_eq_of_cover 7 (G m c) (flushed_eq m c) cover

/-- The operations after the launch, as one function of the output array. -/
def tail (g : S2x1x128.Idx → EReal) : S_.Idx → EReal :=
  Host.divf (F := Ideal)
    (Host.reduceAdd (F := Ideal) (shapeCast S2 (extractStridedSlice S2x1x1 ![0, 0, 0] g slices_S2x1x128_S2x1x1_0_0_0) shapeCasts_S2x1x1_S2)
      (constant (F := Ideal) S_ .f32 0x00000000#32) reducesTo_S2_S_d0 h_S_)
    (constant (F := Ideal) S_ .f32 0x4BA90000#32)

/-- The program's result after the run. -/
theorem result_eq (c : Dev nD) :
    Pipeline.afterTail₀ cfgs (dats m) 0 (V0 m) [hostOps1] c main_v15 = tail (G m c) := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.devRef .tc main_v11)
      = G m c := (Pipeline.withArrays_arr spec0 launch0.win.arr_inj c _ _ 7).trans (final m c)
  rw [hw]
  rfl

/-- The result at its one index: the two runs' sums added from zero, over the entry count. -/
theorem tail_apply (g : S2x1x128.Idx → EReal) (i : S_.Idx) :
    tail g i = Ideal.div (0 + (g (ix3 (0 : Fin 2) (0 : Fin 1) (0 : Fin 128)) + g (ix3 (1 : Fin 2) (0 : Fin 1) (0 : Fin 128))))
      (Ideal.ofBits .f32 0x4BA90000#32) := by
  unfold tail
  show Ideal.div (Host.reduceAdd (F := Ideal) _ _ reducesTo_S2_S_d0 h_S_ i) (Ideal.ofBits .f32 0x4BA90000#32) = _
  refine congrArg (Ideal.div · (Ideal.ofBits .f32 0x4BA90000#32)) ?_
  simp only [Host.reduceAdd, Ideal.hostReduceAdd_def]
  refine (Ideal.hostReduceAdd_total reducesTo_S2_S_d0 (fun b => b.elim0) _ _ i).trans ?_
  refine congrArg₂ (· + ·) Ideal.ofBits_zero_f32 ?_
  refine (Fintype.sum_equiv (⟨fun j => j 0, ix1, fun j => (eq_ix1 j).symm, fun _ => rfl⟩ : S2.Idx ≃ Fin 2) _
    (fun k : Fin 2 => shapeCast S2 (extractStridedSlice S2x1x1 ![0, 0, 0] g slices_S2x1x128_S2x1x1_0_0_0) shapeCasts_S2x1x1_S2 (ix1 k))
    fun j => congrArg _ (eq_ix1 j)).trans ?_
  rw [Fin.sum_univ_two]
  have hk : ∀ k : Fin 2, shapeCast S2 (extractStridedSlice S2x1x1 ![0, 0, 0] g slices_S2x1x128_S2x1x1_0_0_0) shapeCasts_S2x1x1_S2
      (ix1 k) = g (ix3 k (0 : Fin 1) (0 : Fin 128)) := fun k => by
    refine (shapeCast_apply _ shapeCasts_S2x1x1_S2 _ (ix3 k (0 : Fin 1) (0 : Fin 1)) (by
      rw [Shape.rowMajor_val_three, Shape.rowMajor_val_one]
      show (k.val * 1 + 0) * 1 + 0 = k.val
      omega)).trans ?_
    exact extractStridedSlice_apply _ g slices_S2x1x128_S2x1x1_0_0_0 _ (ix3 k (0 : Fin 1) (0 : Fin 128)) fun a => by
      match a with
      | ⟨0, _⟩ => show k.val = 0 + k.val; omega
      | ⟨1, _⟩ => rfl
      | ⟨2, _⟩ => rfl
  exact congrArg₂ (· + ·) (hk 0) (hk 1)

end Cert.KernelIdeal.Final

end
-- ==== Proof.TileValue.lean ====
/-
  A grid point's total is its tile's share of the batch sum.

  With real temperatures and conductances, the block of absolute residuals a point forms — the conduction taken on
  temperatures centred at 300 and the constant put back through the conductances' row sums — is, entry by entry, the
  absolute residual of the batch rows of the point's tile; so the point's total is the sum over its tile of the rows'
  sums of absolute residuals.
-/
import proofs.«118152_j8881992368533_2_alg».proof.Proof.Accum
import proofs.«118152_j8881992368533_2_alg».proof.Proof.Blocks
import proofs.«118152_j8881992368533_2_alg».proof.Proof.Spec

noncomputable section

namespace Cert.KernelIdeal.TileValue

open Idealize.ShloMosaic Idealize.ShloMosaic.TcCoe Idealize.SL.Sem Idealize.ShloMosaic.ValueIdx
open Cert.KernelIdeal Cert.KernelIdeal.Gen Cert.Residual Cert.KernelIdeal.Blocks Cert.KernelIdeal.Accum

variable (m : (ℓ : Loc nD τ sig) → Buf (Elt Ideal) ℓ)

/-- Entry `(r, q)` of point `t`'s block is the absolute residual of batch row `t · 2048 + r` at node `q`. -/
theorem absBlock_apply (c : Dev nD) (h0 : ∀ i, ∃ r : ℝ, argT m c i = (r : EReal)) (h4 : ∀ i, ∃ r : ℝ, argK m c i = (r : EReal))
    (t : Fin cfg0.N) (r : Fin 2048) (q : Fin 169) :
    absBlock m c t (ix2 r q) = absResid (argT m c) (argH m c) (argI m c) (argA m c) (argK m c) (argE m c) (Ideal.ofBits .f32 0x3373864F#32) (brow t r) q := by
  unfold absBlock
  refine (Totals.absBlock_apply (iblk m c 0 t) (iblk m c 1 t) (iblk m c 2 t) (iblk m c 4 t) (iblk m c 6 t) (iblk m c 3 t) (iblk m c 5 t) r q).trans ?_
  simp only [blk_temp m c t, blk_heat m c t, blk_iface m c t, blk_amb m c t, blk_cond m c t, blk_emis m c t, blk_rowsum m c t]
  rw [ofBits_300]
  exact congrArg (fun z : EReal => max z (-z)) (residCentred_eq _ _ _ _ _ _ _ 300 h0 h4 (brow t r) q)

/-- So a point's total is its tile's sum of the rows' sums of absolute residuals. -/
theorem tileTotal_eq (c : Dev nD) (h0 : ∀ i, ∃ r : ℝ, argT m c i = (r : EReal)) (h4 : ∀ i, ∃ r : ℝ, argK m c i = (r : EReal)) (n : ℕ) :
    tileTotal m c n = tileSum (rowAbs (argT m c) (argH m c) (argI m c) (argA m c) (argK m c) (argE m c) (Ideal.ofBits .f32 0x3373864F#32)) n := by
  have hN : cfg0.N = 64 := N_0
  unfold tileTotal tileSum
  by_cases h : n < cfg0.N
  · rw [dif_pos h, dif_pos (lt_of_lt_of_eq h hN)]
    exact Finset.sum_congr rfl fun r _ => Finset.sum_congr rfl fun q _ => absBlock_apply m c h0 h4 ⟨n, h⟩ r q
  · rw [dif_neg h, dif_neg (fun h' => h (lt_of_lt_of_eq h' hN.symm))]

end Cert.KernelIdeal.TileValue

end
-- ==== Proof.Mean.lean ====
/-
  The kernel's result is the mean absolute residual.

  The two runs' sums of 32 tile totals, added from zero, are the batch sum of the rows' sums of absolute residuals
  (the tiles partition the batch); dividing by the entry count gives the mean. Real temperatures and conductances are
  what makes each tile's total the tile's share of that sum.
-/
import proofs.«118152_j8881992368533_2_alg».proof.Proof.Final
import proofs.«118152_j8881992368533_2_alg».proof.Proof.TileValue

noncomputable section

namespace Cert.KernelIdeal.Mean

open Idealize.ShloMosaic Idealize.ShloMosaic.TcCoe Idealize.SL.Sem Idealize.ShloMosaic.ValueIdx
open Cert.KernelIdeal Cert.KernelIdeal.Gen Cert.Residual Cert.KernelIdeal.Blocks Cert.KernelIdeal.Accum
open Cert.KernelIdeal.Final Cert.KernelIdeal.TileValue

variable (m : (ℓ : Loc nD τ sig) → Buf (Elt Ideal) ℓ)

theorem kernel_value (c : Dev nD) (h0 : ∀ i, ∃ r : ℝ, argT m c i = (r : EReal)) (h4 : ∀ i, ∃ r : ℝ, argK m c i = (r : EReal)) :
    tail (G m c) = fun _ => Ideal.div (0 + ∑ b : Fin 131072, rowAbs (argT m c) (argH m c) (argI m c) (argA m c) (argK m c) (argE m c) (Ideal.ofBits .f32 0x3373864F#32) b)
      (Ideal.ofBits .f32 0x4BA90000#32) := by
  funext i
  rw [tail_apply]
  refine congrArg (fun z => Ideal.div (0 + z) (Ideal.ofBits .f32 0x4BA90000#32)) ?_
  show (0 + ∑ s ∈ Finset.range 32, tileTotal m c (32 * 0 + s)) + (0 + ∑ s ∈ Finset.range 32, tileTotal m c (32 * 1 + s)) = _
  simp only [tileTotal_eq m c h0 h4, zero_add, Nat.mul_zero, Nat.mul_one]
  exact tileSum_total _

end Cert.KernelIdeal.Mean

end
-- ==== Proof.lean ====
/-
  The mean absolute thermal residual of a batch of 13 × 13 plates, computed two ways, is one number.

  The reference forms, for each of 131072 plates and each of its 169 nodes, conduction + radiation − load, with the
  conduction a matrix product of the temperatures with the conductance matrix, and takes the mean of the absolute
  values. The kernel walks the batch in 2 × 32 tiles of 2048 plates: per tile it forms the same residuals — the
  conduction on temperatures centred at 300, the constant put back through the conductances' row sums —, adds their
  absolute values up into an accumulator that is reset at the start of each run of 32 tiles and written out at its end,
  and finally adds the two runs' sums and divides by the number of entries.

  On the extended reals the two agree because (i) with real temperatures and conductances — which the finiteness
  precondition gives — centring is undone exactly by distributivity, and (ii) sums may be regrouped freely: rows within
  a tile, tiles within a run, the two runs. Changes of float format are the identity there.

  The three frames are the generated ones (the reference's from its generated run); the ideal pass rewrote nothing, so
  its claim is trivial.
-/
import proofs.«118152_j8881992368533_2_alg».proof.Defs
import proofs.«118152_j8881992368533_2_alg».proof.Proof.Gen.Kernel
import proofs.«118152_j8881992368533_2_alg».proof.Proof.Gen.Kernel.Frame
import proofs.«118152_j8881992368533_2_alg».proof.Proof.Gen.KernelIdeal
import proofs.«118152_j8881992368533_2_alg».proof.Proof.Gen.KernelIdeal.Frame
import proofs.«118152_j8881992368533_2_alg».proof.Proof.Gen.ReferenceIdeal
import proofs.«118152_j8881992368533_2_alg».proof.Proof.Gen.ReferenceIdeal.Run
import proofs.«118152_j8881992368533_2_alg».proof.Proof.Gen.ReferenceIdeal.Read
import proofs.«118152_j8881992368533_2_alg».proof.Proof.Gen.Pre_finite_inputs
import proofs.«118152_j8881992368533_2_alg».proof.Proof.Finite
import proofs.«118152_j8881992368533_2_alg».proof.Proof.RefSide
import proofs.«118152_j8881992368533_2_alg».proof.Proof.Mean
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel's run, read: its result is what the operations after the launch make of the output array, and
    the arguments end as they were. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v15)
          = Cert.KernelIdeal.Final.tail (Cert.KernelIdeal.Final.G m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono (fun _ h c =>
    ⟨((h c).2 Cert.KernelIdeal.main_v15 (Pipeline.mem_restRefs_of Cert.KernelIdeal.main_v15 (by decide) (by decide))).trans
        (Cert.KernelIdeal.Final.result_eq m c),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c)⟩)
    (Cert.KernelIdeal.Gen.run_main m ρ)

theorem preserves : Cert.preserves_Kernel_KernelIdeal := trivial

/-- Both idealized programs end at the mean absolute residual of arguments that agree. -/
theorem algebraic : Cert.algebraic_KernelIdeal_ReferenceIdeal := by
  intro m ρ m' ρ' hpre hagree
  refine ⟨fun c => Cert.KernelIdeal.Final.tail (Cert.KernelIdeal.Final.G m c), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, -, -, -, h4, -⟩ := Cert.Finite.real_of_pre _ _ _ _ _ _ (hpre c)
  rw [(hagree c).1, (hagree c).2.1, (hagree c).2.2.1, (hagree c).2.2.2.1, (hagree c).2.2.2.2.1, (hagree c).2.2.2.2.2]
  exact (Cert.ReferenceIdeal.Read.val_main_v20_eq _ _ _ _ _ _).trans
    ((Cert.ReferenceIdeal.RefValue.result_eq _ _ _ _ _ _).trans (Cert.KernelIdeal.Mean.kernel_value m c h0 h4).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
